-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x64 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 66
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S_, .f32⟩
  | .hbm, ⟨53, _⟩ => ⟨S1600000, .f32⟩
  | .hbm, ⟨54, _⟩ => ⟨S_, .f32⟩
  | .hbm, ⟨55, _⟩ => ⟨S100000, .f32⟩
  | .hbm, ⟨56, _⟩ => ⟨S1600000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S1x64, .f32⟩
  | .hbm, ⟨65, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S100000x1, .f32⟩
  | .hbm, ⟨90, _⟩ => ⟨S100000x64, .f32⟩
  | .hbm, ⟨91, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000x1_S100000x64_0_1 : S100000x1.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The idealized kernel's run with its result array named.

  The program is two grid launches among stretches of host operations. Every weakly fair execution terminates without a
  fault, and at the end each buffer that outlives the launches holds what the fold through the program's segments leaves
  in it; in particular the result array holds what the second launch's write-backs leave, and the arguments are as
  launched.
-/
import proofs.«140252_j6717328851470_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with the result array at the last segment
    boundary's contents and every argument array as launched. -/
theorem run : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Named

end
-- ==== Proof.Spec.lean ====
/-
  What one two-layer mean-aggregating graph network computes, row by row, over the extended reals.

  A layer's affine part at a node is a sum of two matrix products and a bias: the node's aggregated neighbour features
  against one weight matrix, the node's own features against another. The first layer clamps that at zero from below;
  the second takes a logarithmic softmax of it along the classes: the entry minus the row's maximum, minus the logarithm
  of the sum of the exponentials of the shifted row. Everything here is stated for an array of any number of rows, so
  that one definition serves a block of rows and the whole array.
-/
import Idealize.ShloMosaic.PureOps.Ideal
import Idealize.ShloMosaic.Lib.ValueIdx

noncomputable section

open scoped BigOperators

namespace Cert.Sage

open Idealize.ShloMosaic Idealize.ShloMosaic.ValueIdx

/-- Row `r` of an `[N, K]` array, as a function of the column. -/
def row {N K : ℕ} (a : (⟨2, ![N, K]⟩ : Shape).Idx → EReal) (r : Fin N) : Fin K → EReal := fun k => a (ix2 r k)

/-- The affine part of a layer at one node and output column `j`: the aggregated row `ar` against `wl`, the node's own
    row `xr` against `wr`, plus the bias. -/
def lin {K C : ℕ} (ar xr : Fin K → EReal) (wl wr : (⟨2, ![K, C]⟩ : Shape).Idx → EReal) (b : Fin C → EReal) (j : Fin C) : EReal :=
  (∑ k : Fin K, ar k * wl (ix2 k j)) + (∑ k : Fin K, xr k * wr (ix2 k j)) + b j

/-- The maximum of a row, folded from the pattern of minus infinity. -/
def rowMax {C : ℕ} (z : Fin C → EReal) : EReal :=
  (Finset.univ : Finset (Fin C)).fold max (Ideal.ofBits .f32 0xFF800000#32) z

/-- The logarithmic softmax of a row at column `j`, shifted by the row's maximum. -/
def logSoftmax {C : ℕ} (z : Fin C → EReal) (j : Fin C) : EReal :=
  (z j - rowMax z) - Ideal.log (∑ k : Fin C, Ideal.exp (z k - rowMax z))

/-- The first layer on `N` rows: the affine part clamped at the zero pattern from below. -/
def hidden {N K C : ℕ} (a x : (⟨2, ![N, K]⟩ : Shape).Idx → EReal) (wl wr : (⟨2, ![K, C]⟩ : Shape).Idx → EReal) (b : Fin C → EReal) :
    (⟨2, ![N, C]⟩ : Shape).Idx → EReal :=
  fun i => max (lin (row a ⟨(i 0).val, (i 0).isLt⟩) (row x ⟨(i 0).val, (i 0).isLt⟩) wl wr b ⟨(i 1).val, (i 1).isLt⟩)
    (Ideal.ofBits .f32 0x00000000#32)

/-- The second layer on `N` rows: the logarithmic softmax of the affine part along the classes. -/
def output {N K C : ℕ} (a h : (⟨2, ![N, K]⟩ : Shape).Idx → EReal) (wl wr : (⟨2, ![K, C]⟩ : Shape).Idx → EReal) (b : Fin C → EReal) :
    (⟨2, ![N, C]⟩ : Shape).Idx → EReal :=
  fun i => logSoftmax (lin (row a ⟨(i 0).val, (i 0).isLt⟩) (row h ⟨(i 0).val, (i 0).isLt⟩) wl wr b) ⟨(i 1).val, (i 1).isLt⟩

theorem hidden_ix2 {N K C : ℕ} (a x : (⟨2, ![N, K]⟩ : Shape).Idx → EReal) (wl wr : (⟨2, ![K, C]⟩ : Shape).Idx → EReal) (b : Fin C → EReal)
    (r : Fin N) (j : Fin C) :
    hidden a x wl wr b (ix2 r j) = max (lin (row a r) (row x r) wl wr b j) (Ideal.ofBits .f32 0x00000000#32) := rfl

theorem output_ix2 {N K C : ℕ} (a h : (⟨2, ![N, K]⟩ : Shape).Idx → EReal) (wl wr : (⟨2, ![K, C]⟩ : Shape).Idx → EReal) (b : Fin C → EReal)
    (r : Fin N) (j : Fin C) :
    output a h wl wr b (ix2 r j) = logSoftmax (lin (row a r) (row h r) wl wr b) j := rfl

/-- The row's maximum is at least the pattern it is folded from, so taking the maximum with that pattern again changes
    nothing. -/
theorem max_bot_rowMax {C : ℕ} (z : Fin C → EReal) : max (Ideal.ofBits .f32 0xFF800000#32) (rowMax z) = rowMax z :=
  max_eq_right (Finset.le_fold_max _ |>.mpr (Or.inl le_rfl))

end Cert.Sage

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.LibColumns.lean ====
/-
  Columns: three layout operations read at an index, for any extents.

  A reduction over the columns that keeps its axis (`sum(axis = -1, keepdims = True)`) produces a vector that is then
  viewed as a column `[a, 1]`, and a column is broadcast back along the rows to `[a, b]`; and a column is set beside a
  block of `n` columns to make `n + 1` columns. Each is read here at an index `(row, column)` built from its two
  coordinates, so that the coordinates have literal types at a use site.
-/
import Idealize.ShloMosaic.Lib.ValueIdx
import Idealize.ShloMosaic.Lib.Pipeline.Value

namespace Cert.LibColumns

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `n` columns and one more column set side by side (`N = n + 1` columns): at `(r, q)` the block of `n` columns at
    `(r, q)` when `q < n`, the single column at row `r` when `q = n`. -/
theorem concat_col_apply {R n N : ℕ} (hN : N = n + 1) (A : (⟨2, ![R, n]⟩ : Shape).Idx → α) (B : (⟨2, ![R, 1]⟩ : Shape).Idx → α)
    (h : Shape.Concatenates [⟨2, ![R, n]⟩, ⟨2, ![R, 1]⟩] ⟨2, ![R, N]⟩ 1) (r : Fin R) (q : Fin N) :
    concatenate ⟨2, ![R, N]⟩ 1 [⟨⟨2, ![R, n]⟩, A⟩, ⟨⟨2, ![R, 1]⟩, B⟩] h (ix2 r q)
      = if hq : q.val < n then A (ix2 r ⟨q.val, hq⟩) else B (ix2 r (0 : Fin 1)) := by
  split
  · next hq =>
    exact concatenate_pair_apply_left 1 A B h (ix2 r q) rfl (ix2 r ⟨q.val, hq⟩)
      (fun b => match b with | ⟨0, _⟩ => rfl | ⟨1, _⟩ => rfl)
  · next hq =>
    refine concatenate_pair_apply_right 1 A B h (ix2 r q) rfl rfl (ix2 r (0 : Fin 1))
      (fun b hb => match b, hb with | ⟨0, _⟩, _ => rfl | ⟨1, _⟩, hb => absurd rfl hb) ?_
    show 0 + n = q.val
    have := q.isLt; omega

end Cert.LibColumns
-- ==== Proof.Body.lean ====
/-
  The two layers' block computations, read as the specification's functions of the loaded blocks.

  Over the extended reals a change of float format is the identity and a matrix product into a zero accumulator is the
  plain sum over the contracted index, so the first layer's block is the clamped affine part of the specification and
  the second layer's block is the logarithmic softmax of the affine part, entry by entry.
-/
import proofs.«140252_j6717328851470_1_alg».proof.Proof.Gen.KernelIdeal.Skeleton
import proofs.«140252_j6717328851470_1_alg».proof.Proof.Spec
import proofs.«140252_j6717328851470_1_alg».proof.Proof.LibPlainDot
import proofs.«140252_j6717328851470_1_alg».proof.Proof.LibColumns
import Idealize.ShloMosaic.Lib.Pipeline.Value
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The affine part -/

/-- A matrix product of two narrowed blocks into the zero block, at (p, q): over the extended reals narrowing is the
    identity and the product is the plain sum over the contracted index. -/
theorem mm_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (a : FVec Ideal ⟨2, ![M, K]⟩ .f32) (w : FVec Ideal ⟨2, ![K, N]⟩ .f32) (hb : FTy.bits .bf16 < FTy.bits .f32)
    (p : Fin M) (q : Fin N) :
    matmul d none (truncf .bf16 a hb) (truncf .bf16 w hb) (constant (F := Ideal) ⟨2, ![M, N]⟩ .f32 0x00000000#32) (ix2 p q)
      = ∑ k : Fin K, a (ix2 p k) * w (ix2 k q) :=
  Cert.PlainDot.matmul_zero_apply d h1 h2 h3 h4 h5 h6 none _ _ p q

/-- The first layer's block is the specification's clamped affine part of the loaded blocks. -/
theorem pay1_eq (x0 x1 : Vec Ideal S5000x128 .f32) (x2 x3 : Vec Ideal S128x128 .f32) (x4 : Vec Ideal S1x128 .f32) :
    k0_pay1 (F := Ideal) x0 x1 x2 x3 x4 = Cert.Sage.hidden x0 x1 x2 x3 (fun j : Fin 128 => x4 (ix2 (0 : Fin 1) j)) := by
  funext j
  obtain ⟨p, q, rfl⟩ : ∃ (p : Fin 5000) (q : Fin 128), j = ix2 p q := ⟨j 0, j 1, eq_ix2 j⟩
  rw [Cert.Sage.hidden_ix2]
  unfold k0_pay1
  rw [shapeCast_self, shapeCast_self, shapeCast_self, maximumf_apply, addf_apply, addf_apply,
    mm_apply dot_S5000x128_S128x128_S5000x128_1_0_0_1_n_n rfl rfl rfl rfl rfl rfl,
    mm_apply dot_S5000x128_S128x128_S5000x128_1_0_0_1_n_n rfl rfl rfl rfl rfl rfl,
    broadcastTo_1b_ab_apply]
  rfl

/-! ## The logarithmic softmax along the columns of a block -/

section Tail

variable {a b : ℕ} (hr : Shape.Reduces ⟨2, ![a, b]⟩ [1] ⟨1, ![a]⟩)
  (hc : (⟨1, ![a]⟩ : Shape).ShapeCasts ⟨2, ![a, 1]⟩) (hb : (⟨2, ![a, 1]⟩ : Shape).Broadcasts ⟨2, ![a, b]⟩)
  (hφ : FKind.Formats .f32)

/-- The index the column reduction inserts over row p at column k is (p, k). -/
theorem lift_ix (p : Fin a) (k : Fin b) : hr.lift (ix1 p) k = ix2 p k :=
  funext fun c => Fin.ext (by match c with | ⟨0, _⟩ => rfl | ⟨1, _⟩ => rfl)

/-- The maximum reduction over the columns, at row p: the specification's row maximum. -/
theorem rowMax_apply (z : FVec Ideal ⟨2, ![a, b]⟩ .f32)
    (hacc : (0xFF800000#32 : BitVec FTy.f32.bits) = FKind.maximumf.neutral .f32 hφ) (p : Fin a) :
    multiReduction .maximumf [1] ⟨1, ![a]⟩ z 0xFF800000#32 hr hφ hacc (ix1 p)
      = Cert.Sage.rowMax (fun k : Fin b => z (ix2 p k)) := by
  refine (Ideal.multiReduction_maximumf_single z _ hr hφ hacc (ix1 p)).trans ?_
  have e : (z ∘ hr.lift (ix1 p)) = fun k : Fin b => z (ix2 p k) := funext fun k => congrArg z (lift_ix hr p k)
  rw [e]
  rfl

/-- The sum reduction over the columns, at row p: the sum of the row. -/
theorem rowSum_apply (y : FVec Ideal ⟨2, ![a, b]⟩ .f32)
    (hacc : (0x00000000#32 : BitVec FTy.f32.bits) = FKind.add.neutral .f32 hφ) (p : Fin a) :
    multiReduction .add [1] ⟨1, ![a]⟩ y 0x00000000#32 hr hφ hacc (ix1 p) = ∑ k : Fin b, y (ix2 p k) := by
  refine (Ideal.multiReduction_add_single y _ hr hφ hacc (ix1 p)).trans ?_
  exact Finset.sum_congr rfl fun k _ => congrArg y (lift_ix hr p k)

/-- A block minus its row maxima set beside every column, at (p, q). -/
theorem shifted_apply (z : FVec Ideal ⟨2, ![a, b]⟩ .f32)
    (hacc : (0xFF800000#32 : BitVec FTy.f32.bits) = FKind.maximumf.neutral .f32 hφ) (p : Fin a) (q : Fin b) :
    subf z (broadcastTo ⟨2, ![a, b]⟩ (shapeCast ⟨2, ![a, 1]⟩
        (multiReduction .maximumf [1] ⟨1, ![a]⟩ z 0xFF800000#32 hr hφ hacc) hc) hb) (ix2 p q)
      = z (ix2 p q) - Cert.Sage.rowMax (fun k : Fin b => z (ix2 p k)) := by
  rw [subf_apply, Cert.LibColumns.broadcastTo_a1_ab_apply, Cert.LibColumns.shapeCast_a_a1_apply, rowMax_apply]

/-- The block's logarithmic softmax as the body computes it — shift by the row maximum, exponentiate, sum the row, take
    the logarithm, subtract — is the specification's, at (p, q). -/
theorem logSoftmax_apply (z : FVec Ideal ⟨2, ![a, b]⟩ .f32)
    (hmax : (0xFF800000#32 : BitVec FTy.f32.bits) = FKind.maximumf.neutral .f32 hφ)
    (hadd : (0x00000000#32 : BitVec FTy.f32.bits) = FKind.add.neutral .f32 hφ) (p : Fin a) (q : Fin b) :
    subf
        (subf z (broadcastTo ⟨2, ![a, b]⟩ (shapeCast ⟨2, ![a, 1]⟩
          (multiReduction .maximumf [1] ⟨1, ![a]⟩ z 0xFF800000#32 hr hφ hmax) hc) hb))
        (broadcastTo ⟨2, ![a, b]⟩ (log (shapeCast ⟨2, ![a, 1]⟩
          (multiReduction .add [1] ⟨1, ![a]⟩
            (exp (subf z (broadcastTo ⟨2, ![a, b]⟩ (shapeCast ⟨2, ![a, 1]⟩
              (multiReduction .maximumf [1] ⟨1, ![a]⟩ z 0xFF800000#32 hr hφ hmax) hc) hb)))
            0x00000000#32 hr hφ hadd) hc)) hb) (ix2 p q)
      = Cert.Sage.logSoftmax (fun k : Fin b => z (ix2 p k)) q := by
  rw [subf_apply, shifted_apply, Cert.LibColumns.broadcastTo_a1_ab_apply]
  show _ - Ideal.log (shapeCast ⟨2, ![a, 1]⟩ _ hc (ix2 p (0 : Fin 1))) = _
  rw [Cert.LibColumns.shapeCast_a_a1_apply, rowSum_apply]
  unfold Cert.Sage.logSoftmax
  refine congrArg (fun s => _ - Ideal.log s) (Finset.sum_congr rfl fun k _ => ?_)
  show Ideal.exp (subf z _ (ix2 p k)) = _
  rw [shifted_apply]

end Tail

/-! ## The second layer -/

/-- The second layer's block is the specification's logarithmic softmax of the affine part of the loaded blocks. -/
theorem pay2_eq (x0 x1 : Vec Ideal S5000x128 .f32) (x2 x3 : Vec Ideal S128x64 .f32) (x4 : Vec Ideal S1x64 .f32) :
    k1_pay1 (F := Ideal) x0 x1 x2 x3 x4 = Cert.Sage.output x0 x1 x2 x3 (fun j : Fin 64 => x4 (ix2 (0 : Fin 1) j)) := by
  funext j
  obtain ⟨p, q, rfl⟩ : ∃ (p : Fin 5000) (q : Fin 64), j = ix2 p q := ⟨j 0, j 1, eq_ix2 j⟩
  rw [Cert.Sage.output_ix2]
  unfold k1_pay1
  refine (logSoftmax_apply reduces_S5000x64_S5000 shapeCasts_S5000_S5000x1 broadcasts_S5000x1_S5000x64 _ _ _ _ p q).trans ?_
  refine congrArg (fun z => Cert.Sage.logSoftmax z q) (funext fun k => ?_)
  beta_reduce
  rw [shapeCast_self, shapeCast_self, shapeCast_self, shapeCast_self, addf_apply, addf_apply,
    mm_apply dot_S5000x128_S128x64_S5000x64_1_0_0_1_n_n rfl rfl rfl rfl rfl rfl,
    mm_apply dot_S5000x128_S128x64_S5000x64_1_0_0_1_n_n rfl rfl rfl rfl rfl rfl,
    broadcastTo_1b_ab_apply]
  rfl

end Cert.KernelIdeal.Body

end
-- ==== Proof.Blocks.lean ====
/-
  From blocks of rows to whole arrays.

  Each of the two launches walks a grid of 20 points. At point t it reads the block of 5000 rows starting at row
  5000·t of each of its two row-tiled inputs, reads the two weight matrices and the bias row whole, and writes back the
  block of 5000 rows starting at row 5000·t of its output. A layer of the network is computed row by row: row r of the
  layer's result depends on row r of the aggregated features, row r of the node features, the weights and the bias, and
  on nothing else. So the block a point writes back is that block of the layer applied to the WHOLE input arrays; the
  twenty blocks cover all 100000 rows, hence after the launch the output array is the layer of the input arrays as the
  launch finds them. The first launch's layer is the clamped affine part (128 columns), the second's the logarithmic
  softmax of the affine part (64 classes).
-/
import proofs.«140252_j6717328851470_1_alg».proof.Proof.Gen.KernelIdeal.Frame
import proofs.«140252_j6717328851470_1_alg».proof.Proof.Body
import proofs.«140252_j6717328851470_1_alg».proof.Proof.Spec
import Idealize.ShloMosaic.Lib.Pipeline.Value

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The offsets (0, 0) of a rank-2 rectangle are the zero function. -/
theorem zeros2 : (![0, 0] : Fin 2 → Nat) = fun _ => 0 := funext fun a => by fin_cases a <;> rfl

/-! ## The first launch: the hidden layer, 128 columns -/

/-- The index maps of the first launch, decided over its 20 points: the two row-tiled inputs and the output sit at block
    (t, 0) at point t; the weight matrices and the bias row sit at block (0, 0) at every point. -/
theorem index0 : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = t.val ∧ win0_5.index t (1 : Fin 2) = 0 :=
  (by decide +kernel : ∀ t : Fin grid0.N, _)

/-- Row p of the aggregated-features block at point t is row 5000·t + p of the aggregated-features array. -/
theorem rows0_0 (c : Dev nD) (t : Fin cfg0.N) (p : Fin 5000) (k : Fin 128) (h : 5000 * t.val + p.val < 100000) :
    (iblk0 V c 0 t : Vec Ideal S5000x128 .f32) (ix2 p k) = (V c main_v22 : S100000x128.Idx → EReal) (ix2 ⟨5000 * t.val + p.val, h⟩ k) := by
  unfold iblk0
  rw [View.read_apply]
  show V c main_v22 _ = V c main_v22 _
  congr 1
  funext a; apply Fin.ext
  match a with
  | ⟨0, _⟩ => show win0_0.index t 0 * 5000 + 1 * p.val = 5000 * t.val + p.val; rw [(index0 t).1]; omega
  | ⟨1, _⟩ => show win0_0.index t 1 * 128 + 1 * k.val = k.val; rw [(index0 t).2.1]; omega

/-- Row p of the node-features block at point t is row 5000·t + p of the node-features array. -/
theorem rows0_1 (c : Dev nD) (t : Fin cfg0.N) (p : Fin 5000) (k : Fin 128) (h : 5000 * t.val + p.val < 100000) :
    (iblk0 V c 1 t : Vec Ideal S5000x128 .f32) (ix2 p k) = (V c main_arg0 : S100000x128.Idx → EReal) (ix2 ⟨5000 * t.val + p.val, h⟩ k) := by
  unfold iblk0
  rw [View.read_apply]
  show V c main_arg0 _ = V c main_arg0 _
  congr 1
  funext a; apply Fin.ext
  match a with
  | ⟨0, _⟩ => show win0_1.index t 0 * 5000 + 1 * p.val = 5000 * t.val + p.val; rw [(index0 t).2.2.1]; omega
  | ⟨1, _⟩ => show win0_1.index t 1 * 128 + 1 * k.val = k.val; rw [(index0 t).2.2.2.1]; omega

/-- The block of the first weight matrix is the whole matrix, at every point. -/
theorem whole0_2 (c : Dev nD) (t : Fin cfg0.N) :
    (iblk0 V c 2 t : Vec Ideal S128x128 .f32) = (V c main_arg2 : S128x128.Idx → EReal) := by
  funext y
  unfold iblk0
  rw [View.read_apply]
  show V c main_arg2 _ = V c main_arg2 _
  congr 1
  funext a; apply Fin.ext
  match a with
  | ⟨0, _⟩ => show win0_2.index t 0 * 128 + 1 * (y 0).val = (y 0).val; rw [(index0 t).2.2.2.2.1]; omega
  | ⟨1, _⟩ => show win0_2.index t 1 * 128 + 1 * (y 1).val = (y 1).val; rw [(index0 t).2.2.2.2.2.1]; omega

/-- The block of the second weight matrix is the whole matrix, at every point. -/
theorem whole0_3 (c : Dev nD) (t : Fin cfg0.N) :
    (iblk0 V c 3 t : Vec Ideal S128x128 .f32) = (V c main_arg3 : S128x128.Idx → EReal) := by
  funext y
  unfold iblk0
  rw [View.read_apply]
  show V c main_arg3 _ = V c main_arg3 _
  congr 1
  funext a; apply Fin.ext
  match a with
  | ⟨0, _⟩ => show win0_3.index t 0 * 128 + 1 * (y 0).val = (y 0).val; rw [(index0 t).2.2.2.2.2.2.1]; omega
  | ⟨1, _⟩ => show win0_3.index t 1 * 128 + 1 * (y 1).val = (y 1).val; rw [(index0 t).2.2.2.2.2.2.2.1]; omega

/-- The block of the bias row is the whole row, at every point. -/
theorem whole0_4 (c : Dev nD) (t : Fin cfg0.N) :
    (iblk0 V c 4 t : Vec Ideal S1x128 .f32) = (V c main_v23 : S1x128.Idx → EReal) := by
  funext y
  unfold iblk0
  rw [View.read_apply]
  show V c main_v23 _ = V c main_v23 _
  congr 1
  funext a; apply Fin.ext
  match a with
  | ⟨0, _⟩ => show win0_4.index t 0 * 1 + 1 * (y 0).val = (y 0).val; rw [(index0 t).2.2.2.2.2.2.2.2.1]; omega
  | ⟨1, _⟩ => show win0_4.index t 1 * 128 + 1 * (y 1).val = (y 1).val; rw [(index0 t).2.2.2.2.2.2.2.2.2.1]; omega

/-- What point t writes back is the block of rows 5000·t … 5000·t + 4999 of the hidden layer of the whole input arrays:
    entry (p, q) of the block is the clamped affine part at row 5000·t + p, which reads the same two rows, the same
    weights and the same bias. -/
theorem flushed0 (c : Dev nD) (t : Fin cfg0.N) :
    (dat0 (F := Ideal) V c).flushed 5 t = ((cfg0.win 5).blk t).view.read (Elt Ideal)
      (Cert.Sage.hidden (V c main_v22) (V c main_arg0) (V c main_arg2) (V c main_arg3) (fun j : Fin 128 => V c main_v23 (ix2 (0 : Fin 1) j))) := by
  show (cfg0.win 5).cut (grid0.coords t) ((dat0 V c).after 5 t) = _
  rw [after0_5]
  unfold out0_5
  rw [View.canon_unit_zero zeros2]
  simp only [View.ld_unit_zero (S := S5000x128) zeros2, View.ld_unit_zero (S := S128x128) zeros2, View.ld_unit_zero (S := S1x128) zeros2]
  rw [Body.pay1_eq, whole0_2, whole0_3, whole0_4]
  funext y
  obtain ⟨p, q, rfl⟩ : ∃ (p : Fin 5000) (q : Fin 128), y = ix2 p q := ⟨y 0, y 1, eq_ix2 (n0 := 5000) (n1 := 128) y⟩
  have ht : t.val < 20 := lt_of_lt_of_eq t.isLt N_0
  have hr : 5000 * t.val + p.val < 100000 := by have := p.isLt; omega
  have hemb : ((cfg0.win 5).blk t).view.emb (ix2 p q) = (ix2 ⟨5000 * t.val + p.val, hr⟩ q : S100000x128.Idx) := by
    funext a; apply Fin.ext
    match a with
    | ⟨0, _⟩ => show win0_5.index t 0 * 5000 + 1 * p.val = 5000 * t.val + p.val; rw [(index0 t).2.2.2.2.2.2.2.2.2.2.1]; omega
    | ⟨1, _⟩ => show win0_5.index t 1 * 128 + 1 * q.val = q.val; rw [(index0 t).2.2.2.2.2.2.2.2.2.2.2]; omega
  show Cert.Sage.hidden _ _ _ _ _ (ix2 p q) = Cert.Sage.hidden _ _ _ _ _ (((cfg0.win 5).blk t).view.emb (ix2 p q))
  rw [hemb, Cert.Sage.hidden_ix2, Cert.Sage.hidden_ix2]
  have e0 : Cert.Sage.row (N := 5000) (K := 128) (iblk0 V c 0 t) p = Cert.Sage.row (N := 100000) (K := 128) (V c main_v22) ⟨5000 * t.val + p.val, hr⟩ :=
    funext fun k => rows0_0 V c t p k hr
  have e1 : Cert.Sage.row (N := 5000) (K := 128) (iblk0 V c 1 t) p = Cert.Sage.row (N := 100000) (K := 128) (V c main_arg0) ⟨5000 * t.val + p.val, hr⟩ :=
    funext fun k => rows0_1 V c t p k hr
  rw [e0, e1]

/-- An index of the output array is in point t's block iff each coordinate is in the block's range on its axis. -/
theorem mem_block0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- Every row r of the output array is in the block of point r / 5000. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have htv : t.val = (i 0).val / 5000 := rfl
  refine ⟨t, flush0_5 t, ?_⟩
  rw [mem_block0]
  intro a
  match a with
  | ⟨0, _⟩ => show win0_5.index t (0 : Fin 2) * 5000 ≤ (i 0).val ∧ (i 0).val < win0_5.index t (0 : Fin 2) * 5000 + 5000; rw [(index0 t).2.2.2.2.2.2.2.2.2.2.1]; omega
  | ⟨1, _⟩ => show win0_5.index t (1 : Fin 2) * 128 ≤ (i 1).val ∧ (i 1).val < win0_5.index t (1 : Fin 2) * 128 + 128; rw [(index0 t).2.2.2.2.2.2.2.2.2.2.2]; omega

/-- After the first launch the output array is the hidden layer of the input arrays as the launch finds them. -/
theorem final0 (c : Dev nD) : (dat0 (F := Ideal) V c).arrAt 5 cfg0.N
    = Cert.Sage.hidden (V c main_v22) (V c main_arg0) (V c main_arg2) (V c main_arg3) (fun j : Fin 128 => V c main_v23 (ix2 (0 : Fin 1) j)) :=
  (dat0 (F := Ideal) V c).arrAt_eq_of_cover 5
    (Cert.Sage.hidden (V c main_v22) (V c main_arg0) (V c main_arg2) (V c main_arg3) (fun j : Fin 128 => V c main_v23 (ix2 (0 : Fin 1) j)))
    (fun t _ => flushed0 V c t) cover0

/-! ## The second launch: the logarithmic softmax layer, 64 classes -/

/-- The index maps of the second launch, decided over its 20 points: the two row-tiled inputs and the output sit at block
    (t, 0) at point t; the weight matrices and the bias row sit at block (0, 0) at every point. -/
theorem index1 : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = 0 ∧ win1_2.index t (1 : Fin 2) = 0
  ∧ win1_3.index t (0 : Fin 2) = 0 ∧ win1_3.index t (1 : Fin 2) = 0
  ∧ win1_4.index t (0 : Fin 2) = 0 ∧ win1_4.index t (1 : Fin 2) = 0
  ∧ win1_5.index t (0 : Fin 2) = t.val ∧ win1_5.index t (1 : Fin 2) = 0 :=
  (by decide +kernel : ∀ t : Fin grid1.N, _)

/-- Row p of the aggregated-hidden-features block at point t is row 5000·t + p of the aggregated-hidden-features array. -/
theorem rows1_0 (c : Dev nD) (t : Fin cfg1.N) (p : Fin 5000) (k : Fin 128) (h : 5000 * t.val + p.val < 100000) :
    (iblk1 V c 0 t : Vec Ideal S5000x128 .f32) (ix2 p k) = (V c main_v43 : S100000x128.Idx → EReal) (ix2 ⟨5000 * t.val + p.val, h⟩ k) := by
  unfold iblk1
  rw [View.read_apply]
  show V c main_v43 _ = V c main_v43 _
  congr 1
  funext a; apply Fin.ext
  match a with
  | ⟨0, _⟩ => show win1_0.index t 0 * 5000 + 1 * p.val = 5000 * t.val + p.val; rw [(index1 t).1]; omega
  | ⟨1, _⟩ => show win1_0.index t 1 * 128 + 1 * k.val = k.val; rw [(index1 t).2.1]; omega

/-- Row p of the hidden-features block at point t is row 5000·t + p of the hidden-features array. -/
theorem rows1_1 (c : Dev nD) (t : Fin cfg1.N) (p : Fin 5000) (k : Fin 128) (h : 5000 * t.val + p.val < 100000) :
    (iblk1 V c 1 t : Vec Ideal S5000x128 .f32) (ix2 p k) = (V c main_v24 : S100000x128.Idx → EReal) (ix2 ⟨5000 * t.val + p.val, h⟩ k) := by
  unfold iblk1
  rw [View.read_apply]
  show V c main_v24 _ = V c main_v24 _
  congr 1
  funext a; apply Fin.ext
  match a with
  | ⟨0, _⟩ => show win1_1.index t 0 * 5000 + 1 * p.val = 5000 * t.val + p.val; rw [(index1 t).2.2.1]; omega
  | ⟨1, _⟩ => show win1_1.index t 1 * 128 + 1 * k.val = k.val; rw [(index1 t).2.2.2.1]; omega

/-- The block of the first weight matrix is the whole matrix, at every point. -/
theorem whole1_2 (c : Dev nD) (t : Fin cfg1.N) :
    (iblk1 V c 2 t : Vec Ideal S128x64 .f32) = (V c main_arg5 : S128x64.Idx → EReal) := by
  funext y
  unfold iblk1
  rw [View.read_apply]
  show V c main_arg5 _ = V c main_arg5 _
  congr 1
  funext a; apply Fin.ext
  match a with
  | ⟨0, _⟩ => show win1_2.index t 0 * 128 + 1 * (y 0).val = (y 0).val; rw [(index1 t).2.2.2.2.1]; omega
  | ⟨1, _⟩ => show win1_2.index t 1 * 64 + 1 * (y 1).val = (y 1).val; rw [(index1 t).2.2.2.2.2.1]; omega

/-- The block of the second weight matrix is the whole matrix, at every point. -/
theorem whole1_3 (c : Dev nD) (t : Fin cfg1.N) :
    (iblk1 V c 3 t : Vec Ideal S128x64 .f32) = (V c main_arg6 : S128x64.Idx → EReal) := by
  funext y
  unfold iblk1
  rw [View.read_apply]
  show V c main_arg6 _ = V c main_arg6 _
  congr 1
  funext a; apply Fin.ext
  match a with
  | ⟨0, _⟩ => show win1_3.index t 0 * 128 + 1 * (y 0).val = (y 0).val; rw [(index1 t).2.2.2.2.2.2.1]; omega
  | ⟨1, _⟩ => show win1_3.index t 1 * 64 + 1 * (y 1).val = (y 1).val; rw [(index1 t).2.2.2.2.2.2.2.1]; omega

/-- The block of the bias row is the whole row, at every point. -/
theorem whole1_4 (c : Dev nD) (t : Fin cfg1.N) :
    (iblk1 V c 4 t : Vec Ideal S1x64 .f32) = (V c main_v44 : S1x64.Idx → EReal) := by
  funext y
  unfold iblk1
  rw [View.read_apply]
  show V c main_v44 _ = V c main_v44 _
  congr 1
  funext a; apply Fin.ext
  match a with
  | ⟨0, _⟩ => show win1_4.index t 0 * 1 + 1 * (y 0).val = (y 0).val; rw [(index1 t).2.2.2.2.2.2.2.2.1]; omega
  | ⟨1, _⟩ => show win1_4.index t 1 * 64 + 1 * (y 1).val = (y 1).val; rw [(index1 t).2.2.2.2.2.2.2.2.2.1]; omega

/-- What point t writes back is the block of rows 5000·t … 5000·t + 4999 of the output layer of the whole input arrays:
    entry (p, q) of the block is the logarithmic softmax of the affine part of row 5000·t + p at class q, which reads
    the same two rows, the same weights and the same bias. -/
theorem flushed1 (c : Dev nD) (t : Fin cfg1.N) :
    (dat1 (F := Ideal) V c).flushed 5 t = ((cfg1.win 5).blk t).view.read (Elt Ideal)
      (Cert.Sage.output (V c main_v43) (V c main_v24) (V c main_arg5) (V c main_arg6) (fun j : Fin 64 => V c main_v44 (ix2 (0 : Fin 1) j))) := by
  show (cfg1.win 5).cut (grid1.coords t) ((dat1 V c).after 5 t) = _
  rw [after1_5]
  unfold out1_5
  rw [View.canon_unit_zero zeros2]
  simp only [View.ld_unit_zero (S := S5000x128) zeros2, View.ld_unit_zero (S := S128x64) zeros2, View.ld_unit_zero (S := S1x64) zeros2]
  rw [Body.pay2_eq, whole1_2, whole1_3, whole1_4]
  funext y
  obtain ⟨p, q, rfl⟩ : ∃ (p : Fin 5000) (q : Fin 64), y = ix2 p q := ⟨y 0, y 1, eq_ix2 (n0 := 5000) (n1 := 64) y⟩
  have ht : t.val < 20 := lt_of_lt_of_eq t.isLt N_1
  have hr : 5000 * t.val + p.val < 100000 := by have := p.isLt; omega
  have hemb : ((cfg1.win 5).blk t).view.emb (ix2 p q) = (ix2 ⟨5000 * t.val + p.val, hr⟩ q : S100000x64.Idx) := by
    funext a; apply Fin.ext
    match a with
    | ⟨0, _⟩ => show win1_5.index t 0 * 5000 + 1 * p.val = 5000 * t.val + p.val; rw [(index1 t).2.2.2.2.2.2.2.2.2.2.1]; omega
    | ⟨1, _⟩ => show win1_5.index t 1 * 64 + 1 * q.val = q.val; rw [(index1 t).2.2.2.2.2.2.2.2.2.2.2]; omega
  show Cert.Sage.output _ _ _ _ _ (ix2 p q) = Cert.Sage.output _ _ _ _ _ (((cfg1.win 5).blk t).view.emb (ix2 p q))
  rw [hemb, Cert.Sage.output_ix2, Cert.Sage.output_ix2]
  have e0 : Cert.Sage.row (N := 5000) (K := 128) (iblk1 V c 0 t) p = Cert.Sage.row (N := 100000) (K := 128) (V c main_v43) ⟨5000 * t.val + p.val, hr⟩ :=
    funext fun k => rows1_0 V c t p k hr
  have e1 : Cert.Sage.row (N := 5000) (K := 128) (iblk1 V c 1 t) p = Cert.Sage.row (N := 100000) (K := 128) (V c main_v24) ⟨5000 * t.val + p.val, hr⟩ :=
    funext fun k => rows1_1 V c t p k hr
  rw [e0, e1]

/-- An index of the output array is in point t's block iff each coordinate is in the block's range on its axis. -/
theorem mem_block1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v45).slice (win1_5.rect t)).set ↔ _
  rw [View.set_slice_whole, Rect.mem_set_unit]
  exact Iff.rfl

/-- Every row r of the output array is in the block of point r / 5000. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  have htv : t.val = (i 0).val / 5000 := rfl
  refine ⟨t, flush1_5 t, ?_⟩
  rw [mem_block1]
  intro a
  match a with
  | ⟨0, _⟩ => show win1_5.index t (0 : Fin 2) * 5000 ≤ (i 0).val ∧ (i 0).val < win1_5.index t (0 : Fin 2) * 5000 + 5000; rw [(index1 t).2.2.2.2.2.2.2.2.2.2.1]; omega
  | ⟨1, _⟩ => show win1_5.index t (1 : Fin 2) * 64 ≤ (i 1).val ∧ (i 1).val < win1_5.index t (1 : Fin 2) * 64 + 64; rw [(index1 t).2.2.2.2.2.2.2.2.2.2.2]; omega

/-- After the second launch the output array is the output layer of the input arrays as the launch finds them. -/
theorem final1 (c : Dev nD) : (dat1 (F := Ideal) V c).arrAt 5 cfg1.N
    = Cert.Sage.output (V c main_v43) (V c main_v24) (V c main_arg5) (V c main_arg6) (fun j : Fin 64 => V c main_v44 (ix2 (0 : Fin 1) j)) :=
  (dat1 (F := Ideal) V c).arrAt_eq_of_cover 5
    (Cert.Sage.output (V c main_v43) (V c main_v24) (V c main_arg5) (V c main_arg6) (fun j : Fin 64 => V c main_v44 (ix2 (0 : Fin 1) j)))
    (fun t _ => flushed1 V c t) cover1

end Cert.KernelIdeal.Blocks

end
-- ==== Proof.KHost.lean ====
/-
  The host operations around the kernel's two grid launches, read as functions of the arguments.

  Before the first launch the program gathers the rows of the features along the edges' sources, sums them into the
  edges' targets, and divides by the clamped in-degree: the mean aggregate of the features, one opaque function of the
  features and the edge list, the same chain of operations the reference program applies. Between the launches the
  same chain is applied to the first launch's result. The two bias vectors are re-laid as rows. No host operation
  writes an argument.
-/
import proofs.«140252_j6717328851470_1_alg».proof.Proof.Gen.KernelIdeal.Frame
import proofs.«140252_j6717328851470_1_alg».proof.Proof.RefReadP
import Idealize.ShloMosaic.Lib.Pipeline.Value
import Idealize.ShloMosaic.Lib.ValueIdx

set_option maxRecDepth 16384

noncomputable section

namespace Cert.KernelIdeal.Host

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ) (ρ : Dev nD → PrngReg)

/-- The mean aggregate along the edges, as the reference program spells it. -/
abbrev agg (h : (⟨S100000x128, .f32⟩ : BufTy).Contents (Elt F)) (e : (⟨S2x1600000, .i32⟩ : BufTy).Contents (Elt F)) :
    (⟨S100000x128, .f32⟩ : BufTy).Contents (Elt F) :=
  Cert.ReferenceIdeal.ReadP.val_main_v22 (F := F) h e

/-- A vector re-laid as a one-row matrix reads, at column `j` of its row, the vector at `j`. -/
theorem row_cast {α : Type} {n : ℕ} (x : (⟨1, ![n]⟩ : Shape).Idx → α) (h : (⟨1, ![n]⟩ : Shape).ShapeCasts ⟨2, ![1, n]⟩) (j : Fin n) :
    shapeCast ⟨2, ![1, n]⟩ x h (ix2 (0 : Fin 1) j) = x (ix1 j) :=
  shapeCast_apply x h _ _ (by
    rw [Shape.rowMajor_val_two, Shape.rowMajor_val_one]
    show j.val = 0 * n + j.val
    omega)

/-! ## Before the first launch -/

theorem entry0_agg (c : Dev nD) :
    V1 m ρ c main_v22 = agg (m ((c : Thread nD τ).loc main_arg0)) (m ((c : Thread nD τ).loc main_arg1)) := by
  show StableHlo.after hostOps0 (W0 m ρ c) (Proc.devRef .tc main_v22) = _
  after_results_simp
  rfl

/-- The first bias, re-laid as a row, read at a column. -/
theorem entry0_bias (c : Dev nD) (j : Fin 128) :
    V1 m ρ c main_v23 (ix2 (0 : Fin 1) j) = m ((c : Thread nD τ).loc main_arg4) (ix1 j) := by
  have e : (V1 m ρ c main_v23 : S1x128.Idx → Elt F .f32)
      = shapeCast S1x128 (m ((c : Thread nD τ).loc main_arg4)) shapeCasts_S128_S1x128 := by
    show StableHlo.after hostOps0 (W0 m ρ c) (Proc.devRef .tc main_v23) = _
    after_results_simp
    rfl
  rw [e]
  exact row_cast (n := 128) _ _ j

theorem entry0_arg0 (c : Dev nD) : V1 m ρ c main_arg0 = m ((c : Thread nD τ).loc main_arg0) := by
  show StableHlo.after hostOps0 (W0 m ρ c) (Proc.devRef .tc main_arg0) = _
  after_results_simp
  try rfl
theorem entry0_arg2 (c : Dev nD) : V1 m ρ c main_arg2 = m ((c : Thread nD τ).loc main_arg2) := by
  show StableHlo.after hostOps0 (W0 m ρ c) (Proc.devRef .tc main_arg2) = _
  after_results_simp
  try rfl
theorem entry0_arg3 (c : Dev nD) : V1 m ρ c main_arg3 = m ((c : Thread nD τ).loc main_arg3) := by
  show StableHlo.after hostOps0 (W0 m ρ c) (Proc.devRef .tc main_arg3) = _
  after_results_simp
  try rfl

/-! ## Between the launches -/

/-- What the first launch leaves in its result array. -/
abbrev mid (c : Dev nD) : (⟨S100000x128, .f32⟩ : BufTy).Contents (Elt F) := (dat0 (V1 m ρ) c).arrAt 5 cfg0.N

theorem exit0_result (c : Dev nD) : W2 m ρ c (Proc.devRef .tc main_v24) = mid m ρ c := W2_arr m ρ c 5

/-- A buffer that is no array of the first launch and that no host operation before it writes is as launched. -/
theorem exit0_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results_simp
  try rfl
theorem exit0_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results_simp
  try rfl
theorem exit0_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results_simp
  try rfl
theorem exit0_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results_simp
  try rfl

/-- The edges' sources and targets as the first stretch of host operations left them. -/
theorem exit0_src (c : Dev nD) : W2 m ρ c (Proc.devRef .tc main_v1)
    = Cert.ReferenceIdeal.ReadP.val_main_v1 (F := F) (m ((c : Thread nD τ).loc main_arg1)) := by
  rw [W2_of_ne m ρ c main_v1 (by decide)]
  show StableHlo.after hostOps0 (W0 m ρ c) (Proc.devRef .tc main_v1) = _
  after_results_simp
  rfl
theorem exit0_dst (c : Dev nD) : W2 m ρ c (Proc.devRef .tc main_v3)
    = Cert.ReferenceIdeal.ReadP.val_main_v3 (F := F) (m ((c : Thread nD τ).loc main_arg1)) := by
  rw [W2_of_ne m ρ c main_v3 (by decide)]
  show StableHlo.after hostOps0 (W0 m ρ c) (Proc.devRef .tc main_v3) = _
  after_results_simp
  rfl

/-- The second launch finds the mean aggregate of the first launch's result. -/
theorem entry1_agg (c : Dev nD) :
    V3 m ρ c main_v43 = agg (mid m ρ c) (m ((c : Thread nD τ).loc main_arg1)) := by
  show StableHlo.after hostOps1 (W2 m ρ c) (Proc.devRef .tc main_v43) = _
  after_results_simp
  rw [exit0_src, exit0_dst, exit0_result]
  rfl

theorem entry1_mid (c : Dev nD) : V3 m ρ c main_v24 = mid m ρ c := by
  show StableHlo.after hostOps1 (W2 m ρ c) (Proc.devRef .tc main_v24) = _
  after_results_simp
  exact exit0_result m ρ c
theorem entry1_arg5 (c : Dev nD) : V3 m ρ c main_arg5 = m ((c : Thread nD τ).loc main_arg5) := by
  show StableHlo.after hostOps1 (W2 m ρ c) (Proc.devRef .tc main_arg5) = _
  after_results_simp
  exact exit0_arg5 m ρ c
theorem entry1_arg6 (c : Dev nD) : V3 m ρ c main_arg6 = m ((c : Thread nD τ).loc main_arg6) := by
  show StableHlo.after hostOps1 (W2 m ρ c) (Proc.devRef .tc main_arg6) = _
  after_results_simp
  exact exit0_arg6 m ρ c

/-- The second bias, re-laid as a row, read at a column. -/
theorem entry1_bias (c : Dev nD) (j : Fin 64) :
    V3 m ρ c main_v44 (ix2 (0 : Fin 1) j) = m ((c : Thread nD τ).loc main_arg7) (ix1 j) := by
  have e : (V3 m ρ c main_v44 : S1x64.Idx → Elt F .f32)
      = shapeCast S1x64 (m ((c : Thread nD τ).loc main_arg7)) shapeCasts_S64_S1x64 := by
    show StableHlo.after hostOps1 (W2 m ρ c) (Proc.devRef .tc main_v44) = _
    after_results_simp
    rw [exit0_arg7]
    rfl
  rw [e]
  exact row_cast (n := 64) _ _ j

end Cert.KernelIdeal.Host

end
-- ==== Proof.KValue.lean ====
/-
  The idealized kernel's result array as one function of the argument arrays.

  The first launch leaves, in its result array, the first layer of the network applied to the mean aggregate of the
  features and the features themselves; the second launch leaves the second layer applied to the mean aggregate of that
  hidden array and the hidden array itself. The mean aggregate stays one opaque function of an array and the edge list.
-/
import proofs.«140252_j6717328851470_1_alg».proof.Proof.Blocks
import proofs.«140252_j6717328851470_1_alg».proof.Proof.KHost
import proofs.«140252_j6717328851470_1_alg».proof.Proof.Spec

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The hidden array: the first layer at every node. -/
def hiddenOf (c : Dev nD) : (⟨S100000x128, .f32⟩ : BufTy).Contents (Elt Ideal) :=
  Cert.Sage.hidden (N := 100000) (K := 128) (C := 128)
    (Host.agg (m ((c : Thread nD τ).loc main_arg0)) (m ((c : Thread nD τ).loc main_arg1)))
    (m ((c : Thread nD τ).loc main_arg0)) (m ((c : Thread nD τ).loc main_arg2)) (m ((c : Thread nD τ).loc main_arg3))
    (fun j : Fin 128 => m ((c : Thread nD τ).loc main_arg4) (ix1 j))

/-- The network's result: the second layer at every node, over the hidden array. -/
def resultOf (c : Dev nD) : (⟨S100000x64, .f32⟩ : BufTy).Contents (Elt Ideal) :=
  Cert.Sage.output (N := 100000) (K := 128) (C := 64)
    (Host.agg (hiddenOf m c) (m ((c : Thread nD τ).loc main_arg1)))
    (hiddenOf m c) (m ((c : Thread nD τ).loc main_arg5)) (m ((c : Thread nD τ).loc main_arg6))
    (fun j : Fin 64 => m ((c : Thread nD τ).loc main_arg7) (ix1 j))

/-- What the first launch leaves in its result array is the hidden array. -/
theorem mid_eq (c : Dev nD) : Host.mid m ρ c = hiddenOf m c := by
  show (dat0 (V1 m ρ) c).arrAt 5 cfg0.N = _
  rw [Blocks.final0 (V1 m ρ) c, Host.entry0_agg, Host.entry0_arg0, Host.entry0_arg2, Host.entry0_arg3]
  unfold hiddenOf
  exact congrArg (Cert.Sage.hidden (N := 100000) (K := 128) (C := 128) _ _ _ _) (funext fun j => Host.entry0_bias m ρ c j)

/-- The result array at the end of the run is the network's result. -/
theorem result_eq (c : Dev nD) : W4 m ρ c (Proc.devRef .tc main_v45) = resultOf m c := by
  rw [show W4 m ρ c (Proc.devRef .tc main_v45) = (dat1 (V3 m ρ) c).arrAt 5 cfg1.N from W4_arr m ρ c 5]
  rw [Blocks.final1 (V3 m ρ) c, Host.entry1_agg, Host.entry1_mid, Host.entry1_arg5, Host.entry1_arg6, mid_eq]
  unfold resultOf
  exact congrArg (Cert.Sage.output (N := 100000) (K := 128) (C := 64) _ _ _ _) (funext fun j => Host.entry1_bias m ρ c j)

end Cert.KernelIdeal.Whole

end
-- ==== Proof.LibHostFold.lean ====
/-
  Folding a straight line of host operations in two parts, and the transports its inlined calls carry.

  The buffers' contents after a list of host operations is a left fold of the operations' results over the contents at
  the start; so the fold of a concatenation is the fold of its second part over the fold of its first (after_append), and
  a long program can be read in stretches with the contents in between kept as one term.

  The operations of a function inlined at its call site carry each operand through a transport along the equation
  between its buffer's declared type and the value's type: to the buffer's type when written, back when read. A value
  carried there and back is the value (ofBuf_toBuf); and, the two types being one, a single transport of a value is that
  value, stated through heterogeneous equality so that the equation is found by the types' computation at the use site
  (ofBuf_eq, toBuf_eq: give `HEq.rfl`, or `heq_of_eq` of an equation between the two sides read at one type). Removing
  the transports by these lemmas, syntactically, before two composed terms are compared keeps the comparison from
  computing through the transports.
-/
import Idealize.ShloMosaic.Lib.StableHlo.Run

namespace Cert.HostFold

open Idealize.ShloMosaic Idealize.ShloMosaic.StableHlo

variable {τ : Topo} {sig : RefSig} {Val : EltTy → Type}

/-- Folding a concatenation is folding its second part over the fold of its first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A value carried to its buffer's type and back is the value. -/
theorem ofBuf_toBuf {T : BufTy} (x : TRef sig T) (v : T.Contents Val) : x.ofBuf (x.toBuf v) = v := by
  obtain ⟨r, hty, h2, h3⟩ := x
  subst hty
  rfl

/-- Contents read at the value's type are the contents, when the two are one term up to the types' equation. -/
theorem ofBuf_eq {T : BufTy} (x : TRef sig T) (v : x.ref.ty.Contents Val) (w : T.Contents Val) (h : HEq v w) :
    x.ofBuf v = w := by
  obtain ⟨r, hty, h2, h3⟩ := x
  subst hty
  exact eq_of_heq h

/-- A value carried to its buffer's type is the value, likewise. -/
theorem toBuf_eq {T : BufTy} (x : TRef sig T) (v : T.Contents Val) (w : x.ref.ty.Contents Val) (h : HEq v w) :
    x.toBuf v = w := by
  obtain ⟨r, hty, h2, h3⟩ := x
  subst hty
  exact eq_of_heq h

end Cert.HostFold
-- ==== Proof.RefLogits.lean ====
/-
  The reference program's first sixty-nine host operations: everything up to the second layer's affine part, the logits.
  Folding the whole program is folding the remaining fifteen operations (the logarithmic softmax) over the buffers'
  contents after these; and there the logits' buffer holds the logits' stage, the composition of the operations that
  feed it, each a pure function of the arguments.
-/
import proofs.«140252_j6717328851470_1_alg».proof.Proof.RefRunP
import proofs.«140252_j6717328851470_1_alg».proof.Proof.RefReadP
import proofs.«140252_j6717328851470_1_alg».proof.Proof.LibHostFold

noncomputable section

namespace Cert.ReferenceIdeal.RefVal

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

/-- The buffers' contents once the second layer's affine part is computed (the first sixty-nine operations). -/
def atLogits : Valuation τ sig (Elt F) := after ((ValueP.ops (F := F)).take 69) (launchContents m c)

theorem after_ops_eq :
    after (ValueP.ops (F := F)) (launchContents m c) = after ((ValueP.ops (F := F)).drop 69) (atLogits m c) := by
  unfold atLogits
  rw [← Cert.HostFold.after_append, List.take_append_drop]

set_option maxHeartbeats 4000000 in
/-- There the logits' buffer holds the logits' stage. -/
theorem atLogits_logits :
    atLogits m c (Proc.devRef .tc main_v54) = ReadP.val_main_v54 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold atLogits
  simp only [ValueP.ops, List.take_succ_cons, List.take_zero]
  after_results_simp
  rfl

end Cert.ReferenceIdeal.RefVal

end
-- ==== Proof.RefVal.lean ====
/-
  The reference program's result, folded through its host operations, is the last stage of the program read one
  operation at a time. The last fifteen operations, the logarithmic softmax, are folded over the buffers' contents at the
  logits, read at the result buffer, and compared with the last stage with the logits kept as one term. The operations of
  that part carry their operands through transports along equations between a buffer's declared type and its value's
  type; both types are one, so a transport there and back, and a transport of a value to its own type, change nothing.
-/
import proofs.«140252_j6717328851470_1_alg».proof.Proof.RefLogits

noncomputable section

namespace Cert.ReferenceIdeal.RefVal

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

set_option maxHeartbeats 4000000 in
/-- The fold of the program's operations at the result buffer is the last stage at the launch contents. -/
theorem res_eq :
    ValueP.res_main_v55 m c = ReadP.val_main_v55 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold ValueP.res_main_v55
  rw [after_ops_eq]
  have h54 := atLogits_logits m c
  generalize atLogits m c = W at h54 ⊢
  simp only [ValueP.ops, List.drop_succ_cons, List.drop_zero]
  after_results_simp
  simp only [Cert.HostFold.ofBuf_toBuf]
  rw [h54]
  have e54 : (TRef.of (sig := sig) (T := ⟨S100000x64, .f32⟩) main_v54).ofBuf
      (ReadP.val_main_v54 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      = ReadP.val_main_v54 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
    Cert.HostFold.ofBuf_eq _ _ _ HEq.rfl
  rw [e54]
  refine Cert.HostFold.toBuf_eq _ _ _ (heq_of_eq ?_)
  rfl

end Cert.ReferenceIdeal.RefVal

end
-- ==== Proof.RefIs.lean ====
/-
  The reference program's stages are the specification's functions.

  The reference computes a two-layer mean-aggregating graph network one array operation at a time. Read at an index, the
  first layer's result is the affine part of the layer at that node and column clamped at the zero pattern from below; the
  second layer's neighbour aggregate is the first layer's aggregate applied to the hidden features; and the result is the
  logarithmic softmax, shifted by the row's maximum, of the second layer's affine part. The mean aggregate along the edges
  stays an opaque function of its two arguments throughout.
-/
import proofs.«140252_j6717328851470_1_alg».proof.Proof.RefReadP
import proofs.«140252_j6717328851470_1_alg».proof.Proof.Spec
import Idealize.ShloMosaic.PureOps.Ideal.Laws

noncomputable section

open scoped BigOperators

namespace Cert.ReferenceIdeal.RefIs

open Cert.ReferenceIdeal Cert.ReferenceIdeal.ReadP Idealize.ShloMosaic Idealize.ShloMosaic.ValueIdx

theorem hidden_eq (x0 : (⟨S100000x128, .f32⟩ : BufTy).Contents (Elt Ideal)) (x1 : (⟨S2x1600000, .i32⟩ : BufTy).Contents (Elt Ideal)) (x2 x3 : (⟨S128x128, .f32⟩ : BufTy).Contents (Elt Ideal)) (x4 : (⟨S128, .f32⟩ : BufTy).Contents (Elt Ideal)) :
    val_main_v29 (F := Ideal) x0 x1 x2 x3 x4 = Cert.Sage.hidden (val_main_v22 (F := Ideal) x0 x1) x0 x2 x3 (fun j : Fin 128 => x4 (ix1 j)) := by
  funext i
  obtain ⟨r, j, rfl⟩ : ∃ (r : Fin 100000) (j : Fin 128), i = ix2 r j := ⟨i 0, i 1, eq_ix2 i⟩
  rw [Cert.Sage.hidden_ix2]
  unfold Cert.Sage.lin Cert.Sage.row
  rw [val_main_v29_apply, val_main_v28_apply, val_main_v25_apply, val_main_v23_apply, val_main_v24_apply,
    val_main_v27_apply, val_main_v26_apply, val_main_call0_v0_apply, val_main_call0_cst_apply]
  generalize val_main_v22 (F := Ideal) x0 x1 = a
  have el : ∀ k : Fin 128, lidx_main_v23 (ix2 r j) k = ix2 r k := fun k =>
    funext fun d => Fin.ext (by match d with | ⟨0, _⟩ => rfl | ⟨1, _⟩ => rfl)
  have er : ∀ k : Fin 128, ridx_main_v23 (ix2 r j) k = ix2 k j := fun k =>
    funext fun d => Fin.ext (by match d with | ⟨0, _⟩ => rfl | ⟨1, _⟩ => rfl)
  have el' : ∀ k : Fin 128, lidx_main_v24 (ix2 r j) k = ix2 r k := fun k =>
    funext fun d => Fin.ext (by match d with | ⟨0, _⟩ => rfl | ⟨1, _⟩ => rfl)
  have er' : ∀ k : Fin 128, ridx_main_v24 (ix2 r j) k = ix2 k j := fun k =>
    funext fun d => Fin.ext (by match d with | ⟨0, _⟩ => rfl | ⟨1, _⟩ => rfl)
  have eb : idx_main_v26 (idx_main_v27 (ix2 r j)) = ix1 j :=
    funext fun d => Fin.ext (by match d with | ⟨0, _⟩ => rfl)
  simp only [el, er, el', er', eb, Ideal.addf_def, Ideal.maximumf_def, Ideal.ofBits_def]

theorem agg2_eq (x0 : (⟨S100000x128, .f32⟩ : BufTy).Contents (Elt Ideal)) (x1 : (⟨S2x1600000, .i32⟩ : BufTy).Contents (Elt Ideal)) (x2 x3 : (⟨S128x128, .f32⟩ : BufTy).Contents (Elt Ideal)) (x4 : (⟨S128, .f32⟩ : BufTy).Contents (Elt Ideal)) :
    val_main_v48 (F := Ideal) x0 x1 x2 x3 x4 = val_main_v22 (F := Ideal) (val_main_v29 (F := Ideal) x0 x1 x2 x3 x4) x1 := by
  have e35 : val_main_v35 (F := Ideal) x1 = val_main_v9 (F := Ideal) x1 := rfl
  have e38 : val_main_v38 (F := Ideal) x1 = val_main_v12 (F := Ideal) x1 := rfl
  have e37 : val_main_v37 (F := Ideal) = val_main_v11 (F := Ideal) := rfl
  have e47 : val_main_v47 (F := Ideal) x1 = val_main_v21 (F := Ideal) x1 := rfl
  unfold val_main_v48 val_main_v39 val_main_v36 val_main_v22 val_main_v13 val_main_v10
  rw [e35, e38, e37, e47]

/-- The second layer's affine part, read at node `r` and class `c`: two sums over the 128 hidden columns and the bias. -/
theorem affine2_apply (x0 : (⟨S100000x128, .f32⟩ : BufTy).Contents (Elt Ideal)) (x1 : (⟨S2x1600000, .i32⟩ : BufTy).Contents (Elt Ideal)) (x2 x3 : (⟨S128x128, .f32⟩ : BufTy).Contents (Elt Ideal)) (x4 : (⟨S128, .f32⟩ : BufTy).Contents (Elt Ideal)) (x5 x6 : (⟨S128x64, .f32⟩ : BufTy).Contents (Elt Ideal)) (x7 : (⟨S64, .f32⟩ : BufTy).Contents (Elt Ideal)) (r : Fin 100000) (c : Fin 64) :
    val_main_v54 (F := Ideal) x0 x1 x2 x3 x4 x5 x6 x7 (ix2 r c)
      = Cert.Sage.lin (Cert.Sage.row (val_main_v48 (F := Ideal) x0 x1 x2 x3 x4) r) (Cert.Sage.row (val_main_v29 (F := Ideal) x0 x1 x2 x3 x4) r)
          x5 x6 (fun j : Fin 64 => x7 (ix1 j)) c := by
  unfold Cert.Sage.lin Cert.Sage.row
  rw [val_main_v54_apply, val_main_v51_apply, val_main_v49_apply, val_main_v50_apply, val_main_v53_apply, val_main_v52_apply]
  generalize val_main_v48 (F := Ideal) x0 x1 x2 x3 x4 = a
  generalize val_main_v29 (F := Ideal) x0 x1 x2 x3 x4 = h
  have el : ∀ k : Fin 128, lidx_main_v49 (ix2 r c) k = ix2 r k := fun k => funext fun d => Fin.ext (by match d with | ⟨0, _⟩ => rfl | ⟨1, _⟩ => rfl)
  have er : ∀ k : Fin 128, ridx_main_v49 (ix2 r c) k = ix2 k c := fun k => funext fun d => Fin.ext (by match d with | ⟨0, _⟩ => rfl | ⟨1, _⟩ => rfl)
  have el' : ∀ k : Fin 128, lidx_main_v50 (ix2 r c) k = ix2 r k := fun k => funext fun d => Fin.ext (by match d with | ⟨0, _⟩ => rfl | ⟨1, _⟩ => rfl)
  have er' : ∀ k : Fin 128, ridx_main_v50 (ix2 r c) k = ix2 k c := fun k => funext fun d => Fin.ext (by match d with | ⟨0, _⟩ => rfl | ⟨1, _⟩ => rfl)
  have eb : idx_main_v52 (idx_main_v53 (ix2 r c)) = ix1 c :=
    funext fun d => Fin.ext (by match d with | ⟨0, _⟩ => rfl)
  simp only [el, er, el', er', eb, Ideal.addf_def]

/-- Dropping the class axis of a `[100000, 64]` array, as the fact that names the index with a class inserted. -/
theorem reduces_classes : S100000x64.Reduces [1] S100000 := by decide

/-- The index over node `r` with class `c` inserted on the dropped axis is `(r, c)`. -/
theorem lift_classes (r : Fin 100000) (c : Fin 64) : reduces_classes.lift (ix1 r) c = ix2 r c :=
  funext fun d => Fin.ext (by match d with | ⟨0, _⟩ => rfl | ⟨1, _⟩ => rfl)

/-- The maximum-reduce along the classes, read at node `r`: the fold of `max` over the 64 classes of row `r` from the
    initial value, the pattern of minus infinity. -/
theorem reduceMax_apply (z : S100000x64.Idx → EReal) (r : Fin 100000) :
    Host.reduce (FloatOps.maximumf (F := Ideal) (φ := .f32)) z (val_main_call1_cst (F := Ideal))
        Gen.reducesTo_S100000x64_S100000_d1 Gen.h_S_ (ix1 r)
      = Cert.Sage.rowMax (fun c : Fin 64 => z (ix2 r c)) := by
  rw [Host.reduce_eq_fold_single (FloatOps.maximumf (F := Ideal) (φ := .f32)) z (val_main_call1_cst (F := Ideal))
    Gen.reducesTo_S100000x64_S100000_d1 reduces_classes Gen.h_S_ (ix1 r)]
  have e : (z ∘ reduces_classes.lift (ix1 r)) = fun c : Fin 64 => z (ix2 r c) := by
    funext c
    rw [Function.comp_apply, lift_classes r c]
  rw [e]
  rfl

/-- The row maximum the logarithmic softmax subtracts, read at node `r`: that fold, taken once more against the pattern
    of minus infinity, which changes nothing. -/
theorem rowMax_apply (x0 : (⟨S100000x128, .f32⟩ : BufTy).Contents (Elt Ideal)) (x1 : (⟨S2x1600000, .i32⟩ : BufTy).Contents (Elt Ideal)) (x2 x3 : (⟨S128x128, .f32⟩ : BufTy).Contents (Elt Ideal)) (x4 : (⟨S128, .f32⟩ : BufTy).Contents (Elt Ideal)) (x5 x6 : (⟨S128x64, .f32⟩ : BufTy).Contents (Elt Ideal)) (x7 : (⟨S64, .f32⟩ : BufTy).Contents (Elt Ideal)) (r : Fin 100000) :
    val_main_call1_v2 (F := Ideal) x0 x1 x2 x3 x4 x5 x6 x7 (ix1 r)
      = Cert.Sage.rowMax (fun c : Fin 64 => val_main_v54 (F := Ideal) x0 x1 x2 x3 x4 x5 x6 x7 (ix2 r c)) := by
  rw [val_main_call1_v2_apply, val_main_call1_v1_apply, val_main_call1_cst_0_apply]
  unfold val_main_call1_v0
  generalize val_main_v54 (F := Ideal) x0 x1 x2 x3 x4 x5 x6 x7 = z
  rw [reduceMax_apply z r, Ideal.maximumf_def, Ideal.ofBits_def]
  exact Cert.Sage.max_bot_rowMax _

theorem output_eq (x0 : (⟨S100000x128, .f32⟩ : BufTy).Contents (Elt Ideal)) (x1 : (⟨S2x1600000, .i32⟩ : BufTy).Contents (Elt Ideal)) (x2 x3 : (⟨S128x128, .f32⟩ : BufTy).Contents (Elt Ideal)) (x4 : (⟨S128, .f32⟩ : BufTy).Contents (Elt Ideal)) (x5 x6 : (⟨S128x64, .f32⟩ : BufTy).Contents (Elt Ideal)) (x7 : (⟨S64, .f32⟩ : BufTy).Contents (Elt Ideal)) :
    val_main_v55 (F := Ideal) x0 x1 x2 x3 x4 x5 x6 x7 = Cert.Sage.output (val_main_v48 (F := Ideal) x0 x1 x2 x3 x4) (val_main_v29 (F := Ideal) x0 x1 x2 x3 x4) x5 x6 (fun j : Fin 64 => x7 (ix1 j)) := by
  funext i
  obtain ⟨r, j, rfl⟩ : ∃ (r : Fin 100000) (j : Fin 64), i = ix2 r j := ⟨i 0, i 1, eq_ix2 i⟩
  rw [Cert.Sage.output_ix2]
  unfold Cert.Sage.logSoftmax
  -- the affine row of node `r`, from here on one function `Z` of the class
  have h54 : ∀ c : Fin 64, val_main_v54 (F := Ideal) x0 x1 x2 x3 x4 x5 x6 x7 (ix2 r c)
      = Cert.Sage.lin (Cert.Sage.row (val_main_v48 (F := Ideal) x0 x1 x2 x3 x4) r) (Cert.Sage.row (val_main_v29 (F := Ideal) x0 x1 x2 x3 x4) r) x5 x6 (fun j : Fin 64 => x7 (ix1 j)) c :=
    affine2_apply x0 x1 x2 x3 x4 x5 x6 x7 r
  generalize Cert.Sage.lin (Cert.Sage.row (val_main_v48 (F := Ideal) x0 x1 x2 x3 x4) r) (Cert.Sage.row (val_main_v29 (F := Ideal) x0 x1 x2 x3 x4) r) x5 x6 (fun j : Fin 64 => x7 (ix1 j)) = Z at h54 ⊢
  -- its maximum
  have hmax : val_main_call1_v2 (F := Ideal) x0 x1 x2 x3 x4 x5 x6 x7 (ix1 r) = Cert.Sage.rowMax Z := by
    rw [rowMax_apply]
    exact congrArg Cert.Sage.rowMax (funext h54)
  -- the row shifted by its maximum, at class `c`
  have hs : ∀ c : Fin 64, val_main_call1_v5 (F := Ideal) x0 x1 x2 x3 x4 x5 x6 x7 (ix2 r c) = Z c - Cert.Sage.rowMax Z := by
    intro c
    have ei : idx_main_call1_v3 (idx_main_call1_v4 (ix2 r c)) = ix1 r :=
      funext fun d => Fin.ext (by match d with | ⟨0, _⟩ => rfl)
    rw [val_main_call1_v5_apply, val_main_call1_v4_apply, val_main_call1_v3_apply, ei, hmax, h54 c, Ideal.subf_def]
  -- the sum of the exponentials of the shifted row
  have hsum : (∑ k : Fin 64, val_main_call1_v6 (F := Ideal) x0 x1 x2 x3 x4 x5 x6 x7
        (idx_main_call1_v7 (idx_main_call1_v8 (idx_main_call1_v10 (ix2 r j))) k))
      = ∑ k : Fin 64, Ideal.exp (Z k - Cert.Sage.rowMax Z) :=
    Finset.sum_congr rfl fun k _ => by
      have ek : idx_main_call1_v7 (idx_main_call1_v8 (idx_main_call1_v10 (ix2 r j))) k = ix2 r k :=
        funext fun d => Fin.ext (by match d with | ⟨0, _⟩ => rfl | ⟨1, _⟩ => rfl)
      rw [ek, val_main_call1_v6_apply, hs k, Ideal.hostUnary_exp_def]
  rw [val_main_v55_apply, val_main_call1_v10_apply, val_main_call1_v9_apply, val_main_call1_v8_apply,
    val_main_call1_v7_apply, val_main_call1_cst_1_apply, hsum, hs j, Ideal.subf_def, Ideal.hostUnary_log_def,
    Ideal.ofBits_def, Ideal.ofBits_zero_f32, zero_add]

end Cert.ReferenceIdeal.RefIs

end
-- ==== Proof.lean ====
/-
  A two-layer mean-aggregating graph network: the tiled kernel against the plain reference, over the extended reals.

  Both programs first take, for every node, the mean of its in-neighbours' feature rows along the edge list (a gather
  of rows by the edges' sources, a sum into the edges' targets, a division by the in-degree clamped at one from below),
  and then apply a layer: the aggregated row against one weight matrix plus the node's own row against another, plus a
  bias. The first layer clamps the result at zero from below; the second, fed with the mean aggregate of the first
  layer's output and that output itself, takes the logarithmic softmax along the classes, shifted by the row maximum.
  The kernel computes each layer in a grid launch over blocks of 5000 rows, the weights and the bias whole at every
  point, and the aggregation on the host between the launches; the reference computes everything on the host. A layer's
  value at a node depends on that node's two rows only, so the blocks' results are the restrictions of one whole-array
  function, and the two programs apply the same operations entry by entry: no algebraic law is needed beyond reading
  each matrix product as a sum and each row reduction as a fold, and the mean aggregate is never opened — it is the same
  opaque function of an array and the edge list on both sides. The finiteness of the inputs is not used.
-/
import proofs.«140252_j6717328851470_1_alg».proof.Defs
import proofs.«140252_j6717328851470_1_alg».proof.Proof.Gen.Kernel
import proofs.«140252_j6717328851470_1_alg».proof.Proof.Gen.Kernel.Frame
import proofs.«140252_j6717328851470_1_alg».proof.Proof.Gen.KernelIdeal
import proofs.«140252_j6717328851470_1_alg».proof.Proof.Gen.KernelIdeal.Frame
import proofs.«140252_j6717328851470_1_alg».proof.Proof.Gen.ReferenceIdeal
import proofs.«140252_j6717328851470_1_alg».proof.Proof.Gen.Pre_finite_inputs
import proofs.«140252_j6717328851470_1_alg».proof.Proof.KRun
import proofs.«140252_j6717328851470_1_alg».proof.Proof.KValue
import proofs.«140252_j6717328851470_1_alg».proof.Proof.RefRunP
import proofs.«140252_j6717328851470_1_alg».proof.Proof.RefVal
import proofs.«140252_j6717328851470_1_alg».proof.Proof.RefIs
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as launched. -/
theorem frame_kernel [Cert.Kernel.Facts] [Cert.Pre_finite_inputs.Facts] : Cert.frame_Kernel :=
  fun m ρ _ => Cert.Kernel.Gen.frame m ρ

/-- So does the idealized kernel. -/
theorem frame_kernelIdeal [Cert.KernelIdeal.Facts] [Cert.Pre_finite_inputs.Facts] : Cert.frame_KernelIdeal :=
  fun m ρ _ => Cert.KernelIdeal.Gen.frame m ρ

/-- The reference is a straight line of host operations: its run, with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.ValueP.run (F := Ideal) m ρ)

/-- The idealization rewrote nothing. -/
theorem preserves : Cert.preserves_Kernel_KernelIdeal := trivial

/-- From memories that agree on the arguments the two idealized programs end with the same result array: the second
    layer over the first, the mean aggregate the same function on both sides. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Whole.resultOf m c, ?_, ?_⟩
  · exact (θ_run Cert.KernelIdeal.defs _ _).mono
      (fun r h c => ⟨(h c).1.trans (Cert.KernelIdeal.Whole.result_eq m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefVal.res_eq, Cert.ReferenceIdeal.RefIs.output_eq, Cert.ReferenceIdeal.RefIs.agg2_eq,
      Cert.ReferenceIdeal.RefIs.hidden_eq]
    obtain ⟨h0, h1, h2, h3, h4, h5, h6, h7⟩ := hagree c
    rw [h0, h1, h2, h3, h4, h5, h6, h7]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
